-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x256 : Shape := ⟨2, ![500000, 256]⟩
abbrev S4096x256 : Shape := ⟨2, ![4096, 256]⟩
abbrev S500000 : Shape := ⟨1, ![500000]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S500000x256 : S_.BroadcastsInDim S500000x256 (![] : Fin 0 → Fin S500000x256.rank)
  reducesTo_S500000x256_S_d0_1 : S500000x256.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S256x1 .f32) (main_arg6 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1 .f32 := Host.absf main_arg5
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S500000x256 .f32) (main_arg1 : FVec F S4096x256 .f32) (main_arg2 : IVec S500000 32) (main_arg3 : FVec F S512x256 .f32) (main_arg4 : FVec F S256 .f32) (main_arg5 : FVec F S256x1 .f32) (main_arg6 : FVec F S1 .f32) : IVec S_ 1 :=
  let main_v0 : FVec F S500000x256 .f32 := Host.absf main_arg0
  let main_cst : FVec F S_ .f32 := constant S_ .f32 0x7F800000#32
  let main_v1 : FVec F S500000x256 .f32 := broadcastInDim S500000x256 ![] bcast_S_S500000x256 main_cst
  let main_v2 : IVec S500000x256 1 := cmpf .olt main_v0 main_v1
  let main_c : IVec S_ 1 := constantI S_ 1 1#1
  let main_v3 : IVec S_ 1 := (fun x v => Host.reduce IntOp.andi x v reducesTo_S500000x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S500000x256 : Shape := ⟨2, ![500000, 256]⟩
abbrev S4096x256 : Shape := ⟨2, ![4096, 256]⟩
abbrev S500000 : Shape := ⟨1, ![500000]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩
abbrev S500000x1 : Shape := ⟨2, ![500000, 1]⟩
abbrev S256x256 : Shape := ⟨2, ![256, 256]⟩
abbrev S1x256 : Shape := ⟨2, ![1, 256]⟩
abbrev S1x1 : Shape := ⟨2, ![1, 1]⟩
abbrev S5000x256 : Shape := ⟨2, ![5000, 256]⟩
abbrev S5000x1 : Shape := ⟨2, ![5000, 1]⟩

abbrev nBuf : Space → Nat
  | .hbm => 22
  | .vmem => 11
  | .smem => 0
  | _ => 0

abbrev bufTy : (tb : Table) → Fin (tcTables nBuf tb) → BufTy
  | .hbm, ⟨0, _⟩ => ⟨S500000x256, .f32⟩
  | .hbm, ⟨1, _⟩ => ⟨S4096x256, .f32⟩
  | .hbm, ⟨2, _⟩ => ⟨S500000, .i32⟩
  | .hbm, ⟨3, _⟩ => ⟨S512x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S_, .i32⟩
  | .hbm, ⟨8, _⟩ => ⟨S500000, .i32⟩
  | .hbm, ⟨9, _⟩ => ⟨S500000, .i1⟩
  | .hbm, ⟨10, _⟩ => ⟨S_, .i32⟩
  | .hbm, ⟨11, _⟩ => ⟨S500000, .i32⟩
  | .hbm, ⟨12, _⟩ => ⟨S500000, .i32⟩
  | .hbm, ⟨13, _⟩ => ⟨S500000, .i32⟩
  | .hbm, ⟨14, _⟩ => ⟨S500000x1, .i32⟩
  | .hbm, ⟨15, _⟩ => ⟨S500000x256, .f32⟩
  | .hbm, ⟨16, _⟩ => ⟨S256x256, .f32⟩
  | .hbm, ⟨17, _⟩ => ⟨S256x256, .f32⟩
  | .hbm, ⟨18, _⟩ => ⟨S1x256, .f32⟩
  | .hbm, ⟨19, _⟩ => ⟨S1x1, .f32⟩
  | .hbm, ⟨20, _⟩ => ⟨S500000x1, .f32⟩
  | .hbm, ⟨21, _⟩ => ⟨S500000, .f32⟩
  | .local _ .vmem, ⟨0, _⟩ => ⟨S5000x256, .f32⟩
  | .local _ .vmem, ⟨1, _⟩ => ⟨S5000x256, .f32⟩
  | .local _ .vmem, ⟨2, _⟩ => ⟨S5000x256, .f32⟩
  | .local _ .vmem, ⟨3, _⟩ => ⟨S5000x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S256x1, .f32⟩
  | .local _ .vmem, ⟨8, _⟩ => ⟨S1x1, .f32⟩
  | .local _ .vmem, ⟨9, _⟩ => ⟨S5000x1, .f32⟩
  | .local _ .vmem, ⟨10, _⟩ => ⟨S5000x1, .f32⟩
  | _, _ => ⟨S500000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  slices_S512x256_S256x256_0_0 : S512x256.Slices ![0, 0] S256x256
  slices_S512x256_S256x256_256_0 : S512x256.Slices ![256, 0] S256x256
  shapeCasts_S256_S1x256 : S256.ShapeCasts S1x256
  shapeCasts_S1_S1x1 : S1.ShapeCasts S1x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S500000x1_S500000 : S500000x1.ShapeCasts S500000
  gather_S4096x256_S500000x1_S500000x256_1_0_n_n_0_1_1256_wf : GatherDims.WF S4096x256 S500000x1 S500000x256 [1] [0] [] [0] [] 1 ![1, 256]
  dot_S5000x256_S256x256_S5000x256_1_0_0_1_n_n_wf : DotDims.WF S5000x256 S256x256 S5000x256 [1] [0] [0] [1] [] []
  dot_S5000x256_S256x1_S5000x1_1_0_0_1_n_n_wf : DotDims.WF S5000x256 S256x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S500000x256.size a
  hwx0_0 : ∀ i : grid0.Coords, EltTy.bits .f32 = 32 ∨ (Rect.block (s := S500000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S500000x256.size a
  hwx0_1 : ∀ i : grid0.Coords, EltTy.bits .f32 = 32 ∨ (Rect.block (s := S500000x256) S5000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .f32 = 32 ∨ (Rect.block (s := S256x1) S256x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x1.size a ≤ S500000x1.size a
  hwx0_7 : ∀ i : grid0.Coords, EltTy.bits .f32 = 32 ∨ (Rect.block (s := S500000x1) S5000x1.size (cc0_transform_7 i) (hinb0_7 i)).WholeWords (EltTy.packing .f32)

variable [Facts₀]

def gather_S4096x256_S500000x1_S500000x256_1_0_n_n_0_1_1256 : GatherDims S4096x256 S500000x1 S500000x256 where
  offsetDims := [1]
  collapsedSliceDims := [0]
  operandBatchingDims := []
  startIndicesBatchingDims := []
  startIndexMap := [0]
  indexVectorDim := 1
  sliceSizes := ![1, 256]
  wf := gather_S4096x256_S500000x1_S500000x256_1_0_n_n_0_1_1256_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x1_S5000x1_1_0_0_1_n_n : DotDims S5000x256 S256x1 S5000x1 where
  lhsContracting := [1]
  rhsContracting := [0]
  lhsNonContracting := [0]
  rhsNonContracting := [1]
  lhsBatch := []
  rhsBatch := []
  wf := dot_S5000x256_S256x1_S5000x1_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S5000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S5000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S500000x256 : Shape := ⟨2, ![500000, 256]⟩
abbrev S4096x256 : Shape := ⟨2, ![4096, 256]⟩
abbrev S500000 : Shape := ⟨1, ![500000]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩
abbrev S500000x1 : Shape := ⟨2, ![500000, 1]⟩
abbrev S500000x512 : Shape := ⟨2, ![500000, 512]⟩
abbrev S1x256 : Shape := ⟨2, ![1, 256]⟩
abbrev S1x1 : Shape := ⟨2, ![1, 1]⟩

abbrev nBuf : Space → Nat
  | .hbm => 37
  | .vmem => 0
  | .smem => 0
  | _ => 0

abbrev bufTy : (tb : Table) → Fin (tcTables nBuf tb) → BufTy
  | .hbm, ⟨0, _⟩ => ⟨S500000x256, .f32⟩
  | .hbm, ⟨1, _⟩ => ⟨S4096x256, .f32⟩
  | .hbm, ⟨2, _⟩ => ⟨S500000, .i32⟩
  | .hbm, ⟨3, _⟩ => ⟨S512x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S_, .i32⟩
  | .hbm, ⟨8, _⟩ => ⟨S500000, .i32⟩
  | .hbm, ⟨9, _⟩ => ⟨S500000, .i1⟩
  | .hbm, ⟨10, _⟩ => ⟨S_, .i32⟩
  | .hbm, ⟨11, _⟩ => ⟨S500000, .i32⟩
  | .hbm, ⟨12, _⟩ => ⟨S500000, .i32⟩
  | .hbm, ⟨13, _⟩ => ⟨S500000, .i32⟩
  | .hbm, ⟨14, _⟩ => ⟨S500000x1, .i32⟩
  | .hbm, ⟨15, _⟩ => ⟨S500000x256, .f32⟩
  | .hbm, ⟨16, _⟩ => ⟨S500000x512, .f32⟩
  | .hbm, ⟨17, _⟩ => ⟨S500000x256, .f32⟩
  | .hbm, ⟨18, _⟩ => ⟨S1x256, .f32⟩
  | .hbm, ⟨19, _⟩ => ⟨S500000x256, .f32⟩
  | .hbm, ⟨20, _⟩ => ⟨S500000x256, .f32⟩
  | .hbm, ⟨21, _⟩ => ⟨S_, .f32⟩
  | .hbm, ⟨22, _⟩ => ⟨S500000x256, .f32⟩
  | .hbm, ⟨23, _⟩ => ⟨S500000x256, .f32⟩
  | .hbm, ⟨24, _⟩ => ⟨S500000x1, .f32⟩
  | .hbm, ⟨25, _⟩ => ⟨S1x1, .f32⟩
  | .hbm, ⟨26, _⟩ => ⟨S500000x1, .f32⟩
  | .hbm, ⟨27, _⟩ => ⟨S500000x1, .f32⟩
  | .hbm, ⟨28, _⟩ => ⟨S500000x1, .f32⟩
  | .hbm, ⟨29, _⟩ => ⟨S500000x1, .f32⟩
  | .hbm, ⟨30, _⟩ => ⟨S_, .f32⟩
  | .hbm, ⟨31, _⟩ => ⟨S500000x1, .f32⟩
  | .hbm, ⟨32, _⟩ => ⟨S500000x1, .f32⟩
  | .hbm, ⟨33, _⟩ => ⟨S_, .f32⟩
  | .hbm, ⟨34, _⟩ => ⟨S500000x1, .f32⟩
  | .hbm, ⟨35, _⟩ => ⟨S500000x1, .f32⟩
  | .hbm, ⟨36, _⟩ => ⟨S500000, .f32⟩
  | _, _ => ⟨S500000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_cst : Ref sig .tc := ⟨.hbm, 21, rfl⟩
abbrev main_call0_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x256_S500000x256_S500000x512_d1 : Shape.Concatenates [S500000x256, S500000x256] S500000x512 1
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  shapeCasts_S500000x1_S500000 : S500000x1.ShapeCasts S500000
  gather_S4096x256_S500000x1_S500000x256_1_0_n_n_0_1_1256_wf : GatherDims.WF S4096x256 S500000x1 S500000x256 [1] [0] [] [0] [] 1 ![1, 256]
  dot_S500000x512_S512x256_S500000x256_1_0_0_1_n_n_wf : DotDims.WF S500000x512 S512x256 S500000x256 [1] [0] [0] [1] [] []
  dot_S500000x256_S256x1_S500000x1_1_0_0_1_n_n_wf : DotDims.WF S500000x256 S256x1 S500000x1 [1] [0] [0] [1] [] []

variable [Facts₀]

def gather_S4096x256_S500000x1_S500000x256_1_0_n_n_0_1_1256 : GatherDims S4096x256 S500000x1 S500000x256 where
  offsetDims := [1]
  collapsedSliceDims := [0]
  operandBatchingDims := []
  startIndicesBatchingDims := []
  startIndexMap := [0]
  indexVectorDim := 1
  sliceSizes := ![1, 256]
  wf := gather_S4096x256_S500000x1_S500000x256_1_0_n_n_0_1_1256_wf
def dot_S500000x512_S512x256_S500000x256_1_0_0_1_n_n : DotDims S500000x512 S512x256 S500000x256 where
  lhsContracting := [1]
  rhsContracting := [0]
  lhsNonContracting := [0]
  rhsNonContracting := [1]
  lhsBatch := []
  rhsBatch := []
  wf := dot_S500000x512_S512x256_S500000x256_1_0_0_1_n_n_wf
def dot_S500000x256_S256x1_S500000x1_1_0_0_1_n_n : DotDims S500000x256 S256x1 S500000x1 where
  lhsContracting := [1]
  rhsContracting := [0]
  lhsNonContracting := [0]
  rhsNonContracting := [1]
  lhsBatch := []
  rhsBatch := []
  wf := dot_S500000x256_S256x1_S500000x1_1_0_0_1_n_n_wf

class Facts : Prop extends Facts₀ where

variable [Facts]
-- ==== Proof.Score.lean ====
/-
  The function both programs compute, written once on literal shapes.

  Row `r` of the result depends on row `r` of two 500000 × 256 arrays: `x`, an argument, and `g`, whose row `r` is
  a row of a 4096 × 256 table chosen by an integer array (that selection happens before anything else and is the same
  in both programs, so it is carried here as the array `g` it produces).  The first weight matrix `W1` has 512 rows:
  rows 0…255 multiply `x`, rows 256…511 multiply `g`.  Hidden unit `k` of row `r` is
      max ( Σ_{j<256} x[r,j]·W1[j,k]  +  Σ_{j<256} g[r,j]·W1[256+j,k]  +  b1[k] , 0 ),
  and the result at `r` is the logistic function of  Σ_{k<256} hidden[r,k]·W2[k,0] + b2[0].

  The only law needed to pass between "one product with the 512 columns of `x` and `g` side by side" and "two products
  with 256 columns each, added" is that a sum of 512 terms is the sum of its first 256 terms plus the sum of its last
  256 terms.  That holds in every commutative additive monoid, hence on the extended reals with no finiteness
  assumption: no factor is moved across a sum and nothing is cancelled.
-/
import Idealize.ShloMosaic.PureOps.Ideal
import Idealize.ShloMosaic.PureOps.Ideal.Laws
import Idealize.ShloMosaic.Lib.ValueIdx

noncomputable section

namespace Cert.RowScore

open Idealize.ShloMosaic Idealize.ShloMosaic.ValueIdx

/-- Position `j` among the first 256 of 512. -/
abbrev lo (j : Fin 256) : Fin 512 := ⟨j.val, by have := j.isLt; omega⟩
/-- Position `j` among the last 256 of 512. -/
abbrev hi (j : Fin 256) : Fin 512 := ⟨256 + j.val, by have := j.isLt; omega⟩

/-- A sum of 512 terms is the sum of the first 256 plus the sum of the last 256. -/
theorem sum_halves {M : Type} [AddCommMonoid M] (f : Fin 512 → M) :
    ∑ j : Fin 512, f j = ∑ j : Fin 256, f (lo j) + ∑ j : Fin 256, f (hi j) :=
  Fin.sum_univ_add (a := 256) (b := 256) f

/-- Hidden unit `k` of row `r` before the maximum with zero: `x` against the first 256 rows of `W1`, `g` against
    the last 256, and the bias. -/
def preact (x g : FVec Ideal ⟨2, ![500000, 256]⟩ .f32) (W1 : FVec Ideal ⟨2, ![512, 256]⟩ .f32)
    (b1 : FVec Ideal ⟨1, ![256]⟩ .f32) (r : Fin 500000) (k : Fin 256) : EReal :=
  (∑ j : Fin 256, x (ix2 r j) * W1 (ix2 (lo j) k)) + (∑ j : Fin 256, g (ix2 r j) * W1 (ix2 (hi j) k)) + b1 (ix1 k)

/-- The result at row `r`: the logistic function of the rectified hidden units against `W2`, plus `b2`. -/
def scoreAt (x g : FVec Ideal ⟨2, ![500000, 256]⟩ .f32) (W1 : FVec Ideal ⟨2, ![512, 256]⟩ .f32)
    (b1 : FVec Ideal ⟨1, ![256]⟩ .f32) (W2 : FVec Ideal ⟨2, ![256, 1]⟩ .f32) (b2 : FVec Ideal ⟨1, ![1]⟩ .f32)
    (r : Fin 500000) : EReal :=
  Ideal.logistic ((∑ k : Fin 256, max (preact x g W1 b1 r k) 0 * W2 (ix2 k (0 : Fin 1))) + b2 (ix1 (0 : Fin 1)))

/-- All the results as a column, one row per `r`. -/
def scoreCol (x g : FVec Ideal ⟨2, ![500000, 256]⟩ .f32) (W1 : FVec Ideal ⟨2, ![512, 256]⟩ .f32)
    (b1 : FVec Ideal ⟨1, ![256]⟩ .f32) (W2 : FVec Ideal ⟨2, ![256, 1]⟩ .f32) (b2 : FVec Ideal ⟨1, ![1]⟩ .f32) :
    FVec Ideal ⟨2, ![500000, 1]⟩ .f32 :=
  fun i => scoreAt x g W1 b1 W2 b2 ⟨(i 0).val, (i 0).isLt⟩

/-- All the results as a vector, one entry per `r`. -/
def scoreVec (x g : FVec Ideal ⟨2, ![500000, 256]⟩ .f32) (W1 : FVec Ideal ⟨2, ![512, 256]⟩ .f32)
    (b1 : FVec Ideal ⟨1, ![256]⟩ .f32) (W2 : FVec Ideal ⟨2, ![256, 1]⟩ .f32) (b2 : FVec Ideal ⟨1, ![1]⟩ .f32) :
    FVec Ideal ⟨1, ![500000]⟩ .f32 :=
  fun i => scoreAt x g W1 b1 W2 b2 ⟨(i 0).val, (i 0).isLt⟩

end Cert.RowScore

end
-- ==== Proof.RefScore.lean ====
/-
  The reference program's result is the specification `RowScore.scoreVec`.

  The reference lays `x` and the selected rows `g` side by side as one 500000 × 512 array and multiplies it by all of
  `W1`.  Column `c` of that array is column `c` of `x` when `c < 256` and column `c − 256` of `g` otherwise, so the sum
  over the 512 columns splits into its two halves and becomes the two 256-term sums of `RowScore.preact`.  The rest
  is read stage by stage: the bias broadcast along rows, the maximum with zero, the second product with its single
  output column, the second bias, and  1 / (1 + exp(−z)),  which is the logistic function by definition.
-/
import proofs.«129467_j82489141887283_1_alg».proof.Proof.Gen.ReferenceIdeal.Read
import proofs.«129467_j82489141887283_1_alg».proof.Proof.Score
import Idealize.ShloMosaic.Lib.Pipeline.Value

noncomputable section

namespace Cert.ReferenceIdeal.RefScore

open Cert.ReferenceIdeal Cert.ReferenceIdeal.Gen Cert.ReferenceIdeal.Read
open Idealize.ShloMosaic Idealize.ShloMosaic.ValueIdx Cert.RowScore

/-- The side-by-side array at a column of its first half is `a` there. -/
theorem beside_lo (a b : FVec Ideal S500000x256 .f32) (r : Fin 500000) (j : Fin 256) :
    concatenate S500000x512 1 [⟨S500000x256, a⟩, ⟨S500000x256, b⟩] Facts₀.concatenates_S500000x256_S500000x256_S500000x512_d1
      (ix2 r (lo j)) = a (ix2 r j) :=
  concatenate_pair_apply_left 1 a b _ (ix2 r (lo j)) rfl (ix2 r j)
    (fun d => by match d with | ⟨0, _⟩ => rfl | ⟨1, _⟩ => rfl)

/-- The side-by-side array at a column of its second half is `b` at that column less 256. -/
theorem beside_hi (a b : FVec Ideal S500000x256 .f32) (r : Fin 500000) (j : Fin 256) :
    concatenate S500000x512 1 [⟨S500000x256, a⟩, ⟨S500000x256, b⟩] Facts₀.concatenates_S500000x256_S500000x256_S500000x512_d1
      (ix2 r (hi j)) = b (ix2 r j) :=
  concatenate_pair_apply_right 1 a b _ (ix2 r (hi j)) rfl rfl (ix2 r j)
    (fun d hd => by match d with | ⟨0, _⟩ => rfl | ⟨1, _⟩ => exact absurd rfl hd)
    (by show j.val + 256 = 256 + j.val; omega)

/-- Hidden unit `k` of row `r` as the reference computes it — one 512-term product, the bias, the maximum with the zero
    constant — is the specification's: the 512-term sum splits into its halves, the first over `x`, the second over
    the selected rows. -/
theorem hidden_eq (x0 : FVec Ideal S500000x256 .f32) (x1 : FVec Ideal S4096x256 .f32) (x2 : IVec S500000 32)
    (x3 : FVec Ideal S512x256 .f32) (x4 : FVec Ideal S256 .f32) (r : Fin 500000) (k : Fin 256) :
    val_main_v12 (F := Ideal) x0 x1 x2 x3 x4 (ix2 r k)
      = max (preact x0 (val_main_v6 (F := Ideal) x1 x2) x3 x4 r k) 0 := by
  rw [val_main_v12_apply, val_main_v11_apply, val_main_v8_apply, val_main_call0_v0_apply, val_main_call0_cst_apply,
    val_main_v10_apply, val_main_v9_apply, sum_halves]
  have e1 : ∀ j : Fin 256, val_main_v7 (F := Ideal) x0 x1 x2 (lidx_main_v8 (ix2 r k) (lo j)) * x3 (ridx_main_v8 (ix2 r k) (lo j))
      = x0 (ix2 r j) * x3 (ix2 (lo j) k) := fun j => by
    rw [show lidx_main_v8 (ix2 r k) (lo j) = ix2 r (lo j) from funext fun a => by match a with | ⟨0, _⟩ => rfl | ⟨1, _⟩ => rfl,
      show ridx_main_v8 (ix2 r k) (lo j) = ix2 (lo j) k from funext fun a => by match a with | ⟨0, _⟩ => rfl | ⟨1, _⟩ => rfl]
    unfold val_main_v7
    rw [beside_lo]
  have e2 : ∀ j : Fin 256, val_main_v7 (F := Ideal) x0 x1 x2 (lidx_main_v8 (ix2 r k) (hi j)) * x3 (ridx_main_v8 (ix2 r k) (hi j))
      = val_main_v6 (F := Ideal) x1 x2 (ix2 r j) * x3 (ix2 (hi j) k) := fun j => by
    rw [show lidx_main_v8 (ix2 r k) (hi j) = ix2 r (hi j) from funext fun a => by match a with | ⟨0, _⟩ => rfl | ⟨1, _⟩ => rfl,
      show ridx_main_v8 (ix2 r k) (hi j) = ix2 (hi j) k from funext fun a => by match a with | ⟨0, _⟩ => rfl | ⟨1, _⟩ => rfl]
    unfold val_main_v7
    rw [beside_hi]
  rw [Finset.sum_congr rfl (fun j _ => e1 j), Finset.sum_congr rfl (fun j _ => e2 j)]
  rw [show idx_main_v9 (idx_main_v10 (ix2 r k)) = ix1 k from funext fun a => by match a with | ⟨0, _⟩ => rfl]
  simp only [Ideal.maximumf_def, Ideal.addf_def, Ideal.ofBits_def, Ideal.ofBits_zero_f32]
  rfl

/-- The float word of the reference's two constants is the number one. -/
theorem one_word : Ideal.ofBits .f32 0x3F800000#32 = 1 := by
  simp [Ideal.ofBits, Ideal.ieee, -EReal.coe_mul]; norm_num

/-- THE REFERENCE'S RESULT is the specification at the selected rows `val_main_v6 x1 x2`: the second product's
    256-term sum over the rectified hidden units, the second bias, and  1 / (1 + exp(−z))  — the logistic function
    of `z` by definition. -/
theorem result_eq (x0 : FVec Ideal S500000x256 .f32) (x1 : FVec Ideal S4096x256 .f32) (x2 : IVec S500000 32)
    (x3 : FVec Ideal S512x256 .f32) (x4 : FVec Ideal S256 .f32) (x5 : FVec Ideal S256x1 .f32) (x6 : FVec Ideal S1 .f32) :
    val_main_v23 (F := Ideal) x0 x1 x2 x3 x4 x5 x6
      = scoreVec x0 (val_main_v6 (F := Ideal) x1 x2) x3 x4 x5 x6 := by
  funext i
  obtain ⟨r, rfl⟩ : ∃ r : Fin 500000, i = ix1 r := ⟨i 0, eq_ix1 i⟩
  rw [val_main_v23_apply, val_main_v22_apply, val_main_v21_apply, val_main_cst_1_apply, val_main_v20_apply,
    val_main_v19_apply, val_main_cst_apply, val_main_v18_apply, val_main_v17_apply, val_main_v16_apply,
    val_main_v13_apply, val_main_v15_apply, val_main_v14_apply]
  have e : ∀ k : Fin 256,
      val_main_v12 (F := Ideal) x0 x1 x2 x3 x4 (lidx_main_v13 (idx_main_v23 (ix1 r)) k) * x5 (ridx_main_v13 (idx_main_v23 (ix1 r)) k)
        = max (preact x0 (val_main_v6 (F := Ideal) x1 x2) x3 x4 r k) 0 * x5 (ix2 k (0 : Fin 1)) := fun k => by
    rw [show lidx_main_v13 (idx_main_v23 (ix1 r)) k = ix2 r k from
        funext fun a => by match a with | ⟨0, _⟩ => exact Fin.ext (Nat.div_one _) | ⟨1, _⟩ => rfl,
      show ridx_main_v13 (idx_main_v23 (ix1 r)) k = ix2 k (0 : Fin 1) from
        funext fun a => by match a with | ⟨0, _⟩ => rfl | ⟨1, _⟩ => rfl,
      hidden_eq]
  rw [Finset.sum_congr rfl (fun k _ => e k),
    show idx_main_v14 (idx_main_v15 (idx_main_v23 (ix1 r))) = ix1 (0 : Fin 1) from
      funext fun a => by match a with | ⟨0, _⟩ => rfl]
  simp only [Ideal.ofBits_def, one_word]
  rfl

end Cert.ReferenceIdeal.RefScore

end
-- ==== Proof.Body.lean ====
/-
  One grid point's work, read at an index.

  The body loads a 5000 × 256 block of `x`, the matching block of the selected rows, the two 256 × 256 halves of
  `W1`, the bias row, `W2` and the second bias, and stores a 5000 × 1 column.  At exact arithmetic a change of float
  format is the identity and a matrix product into a zero accumulator is the plain sum of products over the
  contracted axis, so entry `p` of the stored column is
      logistic ( Σ_k max( Σ_j a[p,j]·u[j,k] + Σ_j b[p,j]·v[j,k] + c[0,k] , 0 ) · w[k,0]  +  d[0,0] ).
-/
import proofs.«129467_j82489141887283_1_alg».proof.Proof.Gen.KernelIdeal.Skeleton
import proofs.«129467_j82489141887283_1_alg».proof.Proof.Score
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## The two matrix products at an index

Which coordinates of the operands a product's output entry and contraction position address, axis by axis; then the
product into zeros as a sum over the 256 positions of the shared axis. -/

theorem hid_l0 (i : S5000x256.Idx) (q : dot_S5000x256_S256x256_S5000x256_1_0_0_1_n_n.contr.Idx) : (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide),
    dif_pos (show (0 : Fin S5000x256.rank) ∈ dot_S5000x256_S256x256_S5000x256_1_0_0_1_n_n.lhsNonContracting by decide)]
  rfl
theorem hid_l1 (i : S5000x256.Idx) (q : dot_S5000x256_S256x256_S5000x256_1_0_0_1_n_n.contr.Idx) : (dot_S5000x256_S256x256_S5000x256_1_0_0_1_n_n.lhsIdx i q 1).val = (q ⟨0, by decide⟩).val :=
  dot_S5000x256_S256x256_S5000x256_1_0_0_1_n_n.lhsIdx_val_of_single rfl i q
theorem hid_r0 (i : S5000x256.Idx) (q : dot_S5000x256_S256x256_S5000x256_1_0_0_1_n_n.contr.Idx) : (dot_S5000x256_S256x256_S5000x256_1_0_0_1_n_n.rhsIdx i q 0).val = (q ⟨0, by decide⟩).val :=
  dot_S5000x256_S256x256_S5000x256_1_0_0_1_n_n.rhsIdx_val_of_single rfl i q
theorem hid_r1 (i : S5000x256.Idx) (q : dot_S5000x256_S256x256_S5000x256_1_0_0_1_n_n.contr.Idx) : (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide),
    dif_pos (show (1 : Fin S256x256.rank) ∈ dot_S5000x256_S256x256_S5000x256_1_0_0_1_n_n.rhsNonContracting by decide)]
  rfl

/-- A 5000 × 256 by 256 × 256 product into zeros, at row `p` and column `k`: the sum over the shared axis. -/
theorem prod_hidden_at {φ₁ φ₂ : FTy} (l : FVec Ideal S5000x256 φ₁) (r : FVec Ideal S256x256 φ₂) (p : Fin 5000) (k : Fin 256) :
    matmul dot_S5000x256_S256x256_S5000x256_1_0_0_1_n_n none l r (constant S5000x256 .f32 0x00000000#32) (ix2 p k)
      = ∑ j : Fin 256, l (ix2 p j) * r (ix2 j k) := by
  simp only [matmul]
  refine (Ideal.matmul_constant_zero_apply dot_S5000x256_S256x256_S5000x256_1_0_0_1_n_n none l r (ix2 p k)).trans ?_
  rw [← Equiv.sum_comp (contrEquiv1 dot_S5000x256_S256x256_S5000x256_1_0_0_1_n_n 256 rfl rfl).symm]
  refine Finset.sum_congr rfl fun j _ => ?_
  have hj := contrEquiv1_symm_val dot_S5000x256_S256x256_S5000x256_1_0_0_1_n_n 256 rfl rfl j
  have el : dot_S5000x256_S256x256_S5000x256_1_0_0_1_n_n.lhsIdx (ix2 p k) ((contrEquiv1 dot_S5000x256_S256x256_S5000x256_1_0_0_1_n_n 256 rfl rfl).symm j) = ix2 p j :=
    funext fun a => Fin.ext (by
      match a with
      | ⟨0, _⟩ => exact hid_l0 _ _
      | ⟨1, _⟩ => exact (hid_l1 _ _).trans hj)
  have er : dot_S5000x256_S256x256_S5000x256_1_0_0_1_n_n.rhsIdx (ix2 p k) ((contrEquiv1 dot_S5000x256_S256x256_S5000x256_1_0_0_1_n_n 256 rfl rfl).symm j) = ix2 j k :=
    funext fun a => Fin.ext (by
      match a with
      | ⟨0, _⟩ => exact (hid_r0 _ _).trans hj
      | ⟨1, _⟩ => exact hid_r1 _ _)
  rw [el, er]

theorem out_l0 (i : S5000x1.Idx) (q : dot_S5000x256_S256x1_S5000x1_1_0_0_1_n_n.contr.Idx) : (dot_S5000x256_S256x1_S5000x1_1_0_0_1_n_n.lhsIdx i q 0).val = (i 0).val := by
  unfold DotDims.lhsIdx
  rw [dif_neg (show ¬(0 : Fin S5000x256.rank) ∈ dot_S5000x256_S256x1_S5000x1_1_0_0_1_n_n.lhsBatch by decide),
    dif_pos (show (0 : Fin S5000x256.rank) ∈ dot_S5000x256_S256x1_S5000x1_1_0_0_1_n_n.lhsNonContracting by decide)]
  rfl
theorem out_l1 (i : S5000x1.Idx) (q : dot_S5000x256_S256x1_S5000x1_1_0_0_1_n_n.contr.Idx) : (dot_S5000x256_S256x1_S5000x1_1_0_0_1_n_n.lhsIdx i q 1).val = (q ⟨0, by decide⟩).val :=
  dot_S5000x256_S256x1_S5000x1_1_0_0_1_n_n.lhsIdx_val_of_single rfl i q
theorem out_r0 (i : S5000x1.Idx) (q : dot_S5000x256_S256x1_S5000x1_1_0_0_1_n_n.contr.Idx) : (dot_S5000x256_S256x1_S5000x1_1_0_0_1_n_n.rhsIdx i q 0).val = (q ⟨0, by decide⟩).val :=
  dot_S5000x256_S256x1_S5000x1_1_0_0_1_n_n.rhsIdx_val_of_single rfl i q
theorem out_r1 (i : S5000x1.Idx) (q : dot_S5000x256_S256x1_S5000x1_1_0_0_1_n_n.contr.Idx) : (dot_S5000x256_S256x1_S5000x1_1_0_0_1_n_n.rhsIdx i q 1).val = (i 1).val := by
  unfold DotDims.rhsIdx
  rw [dif_neg (show ¬(1 : Fin S256x1.rank) ∈ dot_S5000x256_S256x1_S5000x1_1_0_0_1_n_n.rhsBatch by decide),
    dif_pos (show (1 : Fin S256x1.rank) ∈ dot_S5000x256_S256x1_S5000x1_1_0_0_1_n_n.rhsNonContracting by decide)]
  rfl

/-- A 5000 × 256 by 256 × 1 product into zeros, at row `p`: the sum over the shared axis. -/
theorem prod_out_at {φ₁ φ₂ : FTy} (l : FVec Ideal S5000x256 φ₁) (r : FVec Ideal S256x1 φ₂) (p : Fin 5000) :
    matmul dot_S5000x256_S256x1_S5000x1_1_0_0_1_n_n none l r (constant S5000x1 .f32 0x00000000#32) (ix2 p (0 : Fin 1))
      = ∑ j : Fin 256, l (ix2 p j) * r (ix2 j (0 : Fin 1)) := by
  simp only [matmul]
  refine (Ideal.matmul_constant_zero_apply dot_S5000x256_S256x1_S5000x1_1_0_0_1_n_n none l r (ix2 p (0 : Fin 1))).trans ?_
  rw [← Equiv.sum_comp (contrEquiv1 dot_S5000x256_S256x1_S5000x1_1_0_0_1_n_n 256 rfl rfl).symm]
  refine Finset.sum_congr rfl fun j _ => ?_
  have hj := contrEquiv1_symm_val dot_S5000x256_S256x1_S5000x1_1_0_0_1_n_n 256 rfl rfl j
  have el : dot_S5000x256_S256x1_S5000x1_1_0_0_1_n_n.lhsIdx (ix2 p (0 : Fin 1)) ((contrEquiv1 dot_S5000x256_S256x1_S5000x1_1_0_0_1_n_n 256 rfl rfl).symm j) = ix2 p j :=
    funext fun a => Fin.ext (by
      match a with
      | ⟨0, _⟩ => exact out_l0 _ _
      | ⟨1, _⟩ => exact (out_l1 _ _).trans hj)
  have er : dot_S5000x256_S256x1_S5000x1_1_0_0_1_n_n.rhsIdx (ix2 p (0 : Fin 1)) ((contrEquiv1 dot_S5000x256_S256x1_S5000x1_1_0_0_1_n_n 256 rfl rfl).symm j) = ix2 j (0 : Fin 1) :=
    funext fun a => Fin.ext (by
      match a with
      | ⟨0, _⟩ => exact (out_r0 _ _).trans hj
      | ⟨1, _⟩ => exact out_r1 _ _)
  rw [el, er]

/-! ## The stored column at an entry -/

/-- The logistic function applied lane by lane, read at a lane. -/
theorem logistic_at {s : Shape} {φ : FTy} (v : FVec Ideal s φ) (i : s.Idx) : logistic v i = Ideal.logistic (v i) := rfl

/-- Entry `p` of the column one grid point stores, as a formula in the loaded blocks: changes of float format drop
    out, each product is a 256-term sum, the bias rows are read at row 0, the zero splat is the number zero. -/
theorem entry_at (x0 x1 : Vec Ideal S5000x256 .f32) (w1a w1b : Vec Ideal S256x256 .f32) (b1 : Vec Ideal S1x256 .f32)
    (w2 : Vec Ideal S256x1 .f32) (b2 : Vec Ideal S1x1 .f32) (p : Fin 5000) :
    k0_pay1 (F := Ideal) x0 x1 w1a w1b b1 w2 b2 (ix2 p (0 : Fin 1))
      = Ideal.logistic ((∑ k : Fin 256,
          max ((∑ j : Fin 256, x0 (ix2 p j) * w1a (ix2 j k)) + (∑ j : Fin 256, x1 (ix2 p j) * w1b (ix2 j k))
            + b1 (ix2 (0 : Fin 1) k)) 0 * w2 (ix2 k (0 : Fin 1)))
          + b2 (ix2 (0 : Fin 1) (0 : Fin 1))) := by
  unfold k0_pay1
  simp only [shapeCast_self]
  rw [logistic_at, addf_apply, prod_out_at, broadcastTo_1b_ab_apply]
  refine congrArg Ideal.logistic (congrArg (· + b2 (ix2 (0 : Fin 1) (0 : Fin 1))) (Finset.sum_congr rfl fun k _ => ?_))
  simp only [truncf_apply, maximumf_apply, addf_apply, broadcast_apply, prod_hidden_at, broadcastTo_1b_ab_apply,
    Ideal.ofBits_def, Ideal.ofBits_zero_f32]

/-- The same entry when the blocks are known as pieces of whole arrays: row `p` of the two 5000-row blocks is row
    `r` of `X` and of `G`, the two square blocks are the first and the last 256 rows of `W1`, the bias blocks are `B1`
    and `B2` as one row, and the 256 × 1 block is `W2`.  Then the entry is the specification at row `r`. -/
theorem entry_eq_score (X G : FVec Ideal ⟨2, ![500000, 256]⟩ .f32) (W1 : FVec Ideal ⟨2, ![512, 256]⟩ .f32)
    (B1 : FVec Ideal ⟨1, ![256]⟩ .f32) (W2 : FVec Ideal ⟨2, ![256, 1]⟩ .f32) (B2 : FVec Ideal ⟨1, ![1]⟩ .f32)
    (x0 x1 : Vec Ideal S5000x256 .f32) (w1a w1b : Vec Ideal S256x256 .f32) (b1 : Vec Ideal S1x256 .f32)
    (w2 : Vec Ideal S256x1 .f32) (b2 : Vec Ideal S1x1 .f32) (r : Fin 500000) (p : Fin 5000)
    (h0 : ∀ j : Fin 256, x0 (ix2 p j) = X (ix2 r j))
    (h1 : ∀ j : Fin 256, x1 (ix2 p j) = G (ix2 r j))
    (h2 : ∀ j k : Fin 256, w1a (ix2 j k) = W1 (ix2 (RowScore.lo j) k))
    (h3 : ∀ j k : Fin 256, w1b (ix2 j k) = W1 (ix2 (RowScore.hi j) k))
    (h4 : ∀ k : Fin 256, b1 (ix2 (0 : Fin 1) k) = B1 (ix1 k))
    (h5 : ∀ k : Fin 256, w2 (ix2 k (0 : Fin 1)) = W2 (ix2 k (0 : Fin 1)))
    (h6 : b2 (ix2 (0 : Fin 1) (0 : Fin 1)) = B2 (ix1 (0 : Fin 1))) :
    k0_pay1 (F := Ideal) x0 x1 w1a w1b b1 w2 b2 (ix2 p (0 : Fin 1)) = RowScore.scoreAt X G W1 B1 W2 B2 r := by
  rw [entry_at]
  unfold RowScore.scoreAt RowScore.preact
  simp only [h0, h1, h2, h3, h4, h5, h6]

end Cert.KernelIdeal.Body

end
-- ==== Proof.Entry.lean ====
/-
  The arrays the region finds.

  Before the grid starts the program has prepared five of the eight arrays the windows stage: the selected rows (a
  row of the 4096 × 256 table per row of the result, chosen by the integer array after negative entries are moved up
  by 4096), the first and the last 256 rows of `W1`, and the two biases re-shaped as one-row matrices.  Here each is
  named as a term of the arguments and read at an index.
-/
import proofs.«129467_j82489141887283_1_alg».proof.Proof.Gen.KernelIdeal.Frame
import proofs.«129467_j82489141887283_1_alg».proof.Proof.Score
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Entry

open Cert.KernelIdeal Cert.KernelIdeal.Gen
open Idealize.ShloMosaic Idealize.ShloMosaic.TcCoe Idealize.ShloMosaic.ValueIdx Idealize.SL.Sem Idealize.ShloMosaic.StableHlo

/-- The selected rows: entry `i` of the integer array, moved up by 4096 when negative, names the row of the table
    `M` that becomes row `i`. -/
def selected {F : FTy → Type} [FloatOps F] (M : (⟨S4096x256, .f32⟩ : BufTy).Contents (Elt F)) (idx : (⟨S500000, .i32⟩ : BufTy).Contents (Elt F)) :
    (⟨S500000x256, .f32⟩ : BufTy).Contents (Elt F) :=
  Host.gather gather_S4096x256_S500000x1_S500000x256_1_0_n_n_0_1_1256 M
    (broadcastInDim S500000x1 ![0] Facts₀.bcast_S500000_S500000x1_0
      (select (cmpi .slt idx (broadcastInDim S500000 ![] Facts₀.bcast_S_S500000 (constantI S_ 32 0#32)))
        (addi idx (broadcastInDim S500000 ![] Facts₀.bcast_S_S500000 (constantI S_ 32 4096#32))) idx))

variable (m : (ℓ : Loc nD τ sig) → Buf (Elt Ideal) ℓ)

theorem found_rows (c : Dev nD) :
    (V m c main_v6 : S500000x256.Idx → EReal)
      = selected (F := Ideal) (m ((c : Thread nD τ).loc main_arg1)) (m ((c : Thread nD τ).loc main_arg2)) := by
  show StableHlo.after hostOps0 (fun b => m (c, b)) (Proc.devRef .tc main_v6) = _
  after_results <;> rfl

theorem found_upper (c : Dev nD) :
    (V m c main_v7 : S256x256.Idx → EReal)
      = extractStridedSlice S256x256 ![0, 0] (m ((c : Thread nD τ).loc main_arg3)) Facts₀.slices_S512x256_S256x256_0_0 := by
  show StableHlo.after hostOps0 (fun b => m (c, b)) (Proc.devRef .tc main_v7) = _
  after_results <;> rfl

theorem found_lower (c : Dev nD) :
    (V m c main_v8 : S256x256.Idx → EReal)
      = extractStridedSlice S256x256 ![256, 0] (m ((c : Thread nD τ).loc main_arg3)) Facts₀.slices_S512x256_S256x256_256_0 := by
  show StableHlo.after hostOps0 (fun b => m (c, b)) (Proc.devRef .tc main_v8) = _
  after_results <;> rfl

theorem found_bias1 (c : Dev nD) :
    (V m c main_v9 : S1x256.Idx → EReal)
      = shapeCast S1x256 (m ((c : Thread nD τ).loc main_arg4)) Facts₀.shapeCasts_S256_S1x256 := by
  show StableHlo.after hostOps0 (fun b => m (c, b)) (Proc.devRef .tc main_v9) = _
  after_results <;> rfl

theorem found_bias2 (c : Dev nD) :
    (V m c main_v10 : S1x1.Idx → EReal)
      = shapeCast S1x1 (m ((c : Thread nD τ).loc main_arg6)) Facts₀.shapeCasts_S1_S1x1 := by
  show StableHlo.after hostOps0 (fun b => m (c, b)) (Proc.devRef .tc main_v10) = _
  after_results <;> rfl

/-! ## Read at an index -/

/-- Row `j` of the first prepared square is row `j` of `W1`. -/
theorem upper_at (c : Dev nD) (j k : Fin 256) :
    V m c main_v7 (ix2 j k) = m ((c : Thread nD τ).loc main_arg3) (ix2 (RowScore.lo j) k) := by
  rw [found_upper]
  exact slice2_axis0_apply 0 _ _ j k (RowScore.lo j) (Nat.zero_add _).symm

/-- Row `j` of the second prepared square is row `256 + j` of `W1`. -/
theorem lower_at (c : Dev nD) (j k : Fin 256) :
    V m c main_v8 (ix2 j k) = m ((c : Thread nD τ).loc main_arg3) (ix2 (RowScore.hi j) k) := by
  rw [found_lower]
  exact slice2_axis0_apply 256 _ _ j k (RowScore.hi j) rfl

/-- The first bias as one row, at column `k`. -/
theorem bias1_at (c : Dev nD) (k : Fin 256) :
    V m c main_v9 (ix2 (0 : Fin 1) k) = m ((c : Thread nD τ).loc main_arg4) (ix1 k) := by
  rw [found_bias1]
  exact shapeCast_a_1a_apply _ _ (0 : Fin 1) k

/-- The second bias as a one-by-one matrix. -/
theorem bias2_at (c : Dev nD) :
    V m c main_v10 (ix2 (0 : Fin 1) (0 : Fin 1)) = m ((c : Thread nD τ).loc main_arg6) (ix1 (0 : Fin 1)) := by
  rw [found_bias2]
  exact shapeCast_a_1a_apply _ _ (0 : Fin 1) (0 : Fin 1)

end Cert.KernelIdeal.Entry

end
-- ==== Proof.Blocks.lean ====
/-
  From one grid point's column to the whole result.

  The grid has 100 points.  At point `t` the two long arrays are read through rows 5000·t … 5000·t + 4999, the five
  small arrays are read whole, and the stored column goes to the same 5000 rows of the 500000 × 1 result.  So what
  point `t` writes back is block `t` of ONE column, `RowScore.scoreCol` of the argument arrays; the 100 blocks tile
  the result (row `i` lies in block `i / 5000`), hence the result array ends holding that column; the last operation
  re-shapes the column into a vector, entry `r` of which is row `r` of the column.
-/
import proofs.«129467_j82489141887283_1_alg».proof.Proof.Gen.KernelIdeal.Frame
import proofs.«129467_j82489141887283_1_alg».proof.Proof.Score
import proofs.«129467_j82489141887283_1_alg».proof.Proof.Body
import proofs.«129467_j82489141887283_1_alg».proof.Proof.Entry
import Idealize.ShloMosaic.Lib.Pipeline.Value
import Idealize.ShloMosaic.Lib.StableHlo.Run
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

theorem zero_offsets : (![0, 0] : Fin 2 → Nat) = fun _ => 0 := funext fun a => by fin_cases a <;> rfl

/-- The whole column of results, as a function of the argument arrays on core `c`. -/
def outCol (c : Dev nD) : S500000x1.Idx → EReal := RowScore.scoreCol (m ((c : Thread nD τ).loc main_arg0)) (Entry.selected (F := Ideal) (m ((c : Thread nD τ).loc main_arg1)) (m ((c : Thread nD τ).loc main_arg2))) (m ((c : Thread nD τ).loc main_arg3)) (m ((c : Thread nD τ).loc main_arg4)) (m ((c : Thread nD τ).loc main_arg5)) (m ((c : Thread nD τ).loc main_arg6))

/-- The printed index maps, decided over the 100 points: the two long inputs and the output move one block of rows
    per point, the five small inputs stay at block 0. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- WHAT POINT `t` WRITES BACK is block `t` of the whole column. -/
theorem flushed_eq (c : Dev nD) (t : Fin cfg0.N) :
    (dats m 0 c).flushed 7 t = ((cfg0.win 7).blk t).view.read (Elt Ideal) (outCol m c) := by
  show (cfg0.win 7).cut (grid0.coords t) ((dats m 0 c).after 7 t) = _
  rw [after0_7]
  unfold out0_7
  rw [View.canon_unit_zero zero_offsets]
  simp only [View.ld_unit_zero (S := S5000x256) zero_offsets, View.ld_unit_zero (S := S256x256) zero_offsets,
    View.ld_unit_zero (S := S1x256) zero_offsets, View.ld_unit_zero (S := S256x1) zero_offsets,
    View.ld_unit_zero (S := S1x1) zero_offsets]
  obtain ⟨a00, a01, a10, a11, a20, a21, a30, a31, a40, a41, a50, a51, a60, a61, a70, a71⟩ := index_maps t
  have hN : t.val < 100 := Nat.lt_of_lt_of_eq t.isLt N_0
  funext y
  obtain ⟨p, q, rfl⟩ : ∃ (p : Fin 5000) (q : Fin 1), y = ix2 p q := ⟨y 0, y 1, eq_ix2 y⟩
  obtain rfl : q = 0 := Subsingleton.elim _ _
  have hp : p.val < 5000 := p.isLt
  have hr : t.val * 5000 + p.val < 500000 := by omega
  show k0_pay1 (F := Ideal) (iblk m c 0 t) (iblk m c 1 t) (iblk m c 2 t) (iblk m c 3 t) (iblk m c 4 t) (iblk m c 5 t) (iblk m c 6 t) (ix2 p (0 : Fin 1))
    = outCol m c (((cfg0.win 7).blk t).view.emb (ix2 p (0 : Fin 1)))
  refine (Body.entry_eq_score (m ((c : Thread nD τ).loc main_arg0)) (Entry.selected (F := Ideal) (m ((c : Thread nD τ).loc main_arg1)) (m ((c : Thread nD τ).loc main_arg2))) (m ((c : Thread nD τ).loc main_arg3)) (m ((c : Thread nD τ).loc main_arg4)) (m ((c : Thread nD τ).loc main_arg5)) (m ((c : Thread nD τ).loc main_arg6))
    (iblk m c 0 t) (iblk m c 1 t) (iblk m c 2 t) (iblk m c 3 t) (iblk m c 4 t) (iblk m c 5 t) (iblk m c 6 t)
    ⟨t.val * 5000 + p.val, hr⟩ p ?_ ?_ ?_ ?_ ?_ ?_ ?_).trans ?_
  · intro j
    show V m c main_arg0 (((cfg0.win 0).blk t).view.emb (ix2 p j)) = _
    rw [V_main_arg0]
    refine congrArg (m ((c : Thread nD τ).loc main_arg0)) (funext fun a => Fin.ext ?_)
    match a with
    | ⟨0, _⟩ => show win0_0.index t (0 : Fin 2) * 5000 + 1 * p.val = t.val * 5000 + p.val; omega
    | ⟨1, _⟩ => have hj : j.val < 256 := j.isLt; show win0_0.index t (1 : Fin 2) * 256 + 1 * j.val = j.val; omega
  · intro j
    show V m c main_v6 (((cfg0.win 1).blk t).view.emb (ix2 p j)) = _
    rw [Entry.found_rows]
    refine congrArg (Entry.selected (F := Ideal) (m ((c : Thread nD τ).loc main_arg1)) (m ((c : Thread nD τ).loc main_arg2))) (funext fun a => Fin.ext ?_)
    match a with
    | ⟨0, _⟩ => show win0_1.index t (0 : Fin 2) * 5000 + 1 * p.val = t.val * 5000 + p.val; omega
    | ⟨1, _⟩ => have hj : j.val < 256 := j.isLt; show win0_1.index t (1 : Fin 2) * 256 + 1 * j.val = j.val; omega
  · intro j k
    rw [← Entry.upper_at m c j k]
    show V m c main_v7 (((cfg0.win 2).blk t).view.emb (ix2 j k)) = _
    refine congrArg (V m c main_v7) (funext fun a => Fin.ext ?_)
    match a with
    | ⟨0, _⟩ => show win0_2.index t (0 : Fin 2) * 256 + 1 * j.val = j.val; omega
    | ⟨1, _⟩ => show win0_2.index t (1 : Fin 2) * 256 + 1 * k.val = k.val; omega
  · intro j k
    rw [← Entry.lower_at m c j k]
    show V m c main_v8 (((cfg0.win 3).blk t).view.emb (ix2 j k)) = _
    refine congrArg (V m c main_v8) (funext fun a => Fin.ext ?_)
    match a with
    | ⟨0, _⟩ => show win0_3.index t (0 : Fin 2) * 256 + 1 * j.val = j.val; omega
    | ⟨1, _⟩ => show win0_3.index t (1 : Fin 2) * 256 + 1 * k.val = k.val; omega
  · intro k
    rw [← Entry.bias1_at m c k]
    show V m c main_v9 (((cfg0.win 4).blk t).view.emb (ix2 (0 : Fin 1) k)) = _
    refine congrArg (V m c main_v9) (funext fun a => Fin.ext ?_)
    match a with
    | ⟨0, _⟩ => show win0_4.index t (0 : Fin 2) * 1 + 1 * 0 = 0; omega
    | ⟨1, _⟩ => show win0_4.index t (1 : Fin 2) * 256 + 1 * k.val = k.val; omega
  · intro k
    show V m c main_arg5 (((cfg0.win 5).blk t).view.emb (ix2 k (0 : Fin 1))) = _
    rw [V_main_arg5]
    refine congrArg (m ((c : Thread nD τ).loc main_arg5)) (funext fun a => Fin.ext ?_)
    match a with
    | ⟨0, _⟩ => show win0_5.index t (0 : Fin 2) * 256 + 1 * k.val = k.val; omega
    | ⟨1, _⟩ => show win0_5.index t (1 : Fin 2) * 1 + 1 * 0 = 0; omega
  · rw [← Entry.bias2_at m c]
    show V m c main_v10 (((cfg0.win 6).blk t).view.emb (ix2 (0 : Fin 1) (0 : Fin 1))) = _
    refine congrArg (V m c main_v10) (funext fun a => Fin.ext ?_)
    match a with
    | ⟨0, _⟩ => show win0_6.index t (0 : Fin 2) * 1 + 1 * 0 = 0; omega
    | ⟨1, _⟩ => show win0_6.index t (1 : Fin 2) * 1 + 1 * 0 = 0; omega
  · unfold outCol RowScore.scoreCol
    refine congrArg (RowScore.scoreAt (m ((c : Thread nD τ).loc main_arg0)) (Entry.selected (F := Ideal) (m ((c : Thread nD τ).loc main_arg1)) (m ((c : Thread nD τ).loc main_arg2))) (m ((c : Thread nD τ).loc main_arg3)) (m ((c : Thread nD τ).loc main_arg4)) (m ((c : Thread nD τ).loc main_arg5)) (m ((c : Thread nD τ).loc main_arg6))) (Fin.ext ?_)
    show t.val * 5000 + p.val = win0_7.index t (0 : Fin 2) * 5000 + 1 * p.val
    omega

/-- An index of the result array is in point `t`'s block iff each coordinate is in the block's range on its axis. -/
theorem mem_blk (t : Fin cfg0.N) (i : S500000x1.Idx) :
    i ∈ ((cfg0.win 7).blk t).view.set ↔ ∀ a : Fin 2, win0_7.index t a * S5000x1.size a ≤ (i a).val
      ∧ (i a).val < win0_7.index t a * S5000x1.size a + S5000x1.size a := by
  show i ∈ ((View.whole main_v11).slice (win0_7.rect t)).set ↔ _
  rw [View.set_slice_whole, Rect.mem_set_unit]
  exact Iff.rfl

/-- THE BLOCKS TILE THE RESULT: row `i` lies in the block of point `i / 5000`, which is written back. -/
theorem cover (i : S500000x1.Idx) :
    ∃ t : Fin cfg0.N, (cfg0.win 7).flush t = true ∧ i ∈ ((cfg0.win 7).blk t).view.set := by
  have hi0 : (i 0).val < 500000 := (i 0).isLt
  have hi1 : (i 1).val < 1 := (i 1).isLt
  have hlt : (i 0).val / 5000 < cfg0.N := Nat.lt_of_lt_of_eq (by omega : (i 0).val / 5000 < 100) N_0.symm
  refine ⟨⟨(i 0).val / 5000, hlt⟩, flush0_7 _, ?_⟩
  obtain ⟨-, -, -, -, -, -, -, -, -, -, -, -, -, -, a70, a71⟩ := index_maps ⟨(i 0).val / 5000, hlt⟩
  have b70 : win0_7.index ⟨(i 0).val / 5000, hlt⟩ (0 : Fin 2) = (i 0).val / 5000 := a70
  rw [mem_blk]
  intro a
  match a with
  | ⟨0, _⟩ =>
    show win0_7.index ⟨(i 0).val / 5000, hlt⟩ (0 : Fin 2) * 5000 ≤ (i 0).val
      ∧ (i 0).val < win0_7.index ⟨(i 0).val / 5000, hlt⟩ (0 : Fin 2) * 5000 + 5000
    omega
  | ⟨1, _⟩ =>
    show win0_7.index ⟨(i 0).val / 5000, hlt⟩ (1 : Fin 2) * 1 ≤ (i 1).val
      ∧ (i 1).val < win0_7.index ⟨(i 0).val / 5000, hlt⟩ (1 : Fin 2) * 1 + 1
    omega

/-- THE RESULT ARRAY after the grid is the whole column. -/
theorem final (c : Dev nD) : (dats m 0 c).arrAt 7 cfg0.N = outCol m c :=
  (dats m 0 c).arrAt_eq_of_cover 7 (outCol m c) (fun t _ => flushed_eq m c t) cover

/-- THE VECTOR the last operation leaves: entry `r` of the re-shaped column is its row `r`. -/
theorem tail_eq (c : Dev nD) :
    Pipeline.afterTail₀ cfgs (dats m) 0 (V0 m) [hostOps1] c main_v12 = RowScore.scoreVec (m ((c : Thread nD τ).loc main_arg0)) (Entry.selected (F := Ideal) (m ((c : Thread nD τ).loc main_arg1)) (m ((c : Thread nD τ).loc main_arg2))) (m ((c : Thread nD τ).loc main_arg3)) (m ((c : Thread nD τ).loc main_arg4)) (m ((c : Thread nD τ).loc main_arg5)) (m ((c : Thread nD τ).loc main_arg6)) := by
  unfold Pipeline.afterTail₀
  show StableHlo.after hostOps1 _ (Proc.devRef .tc main_v12) = _
  after_results
  rw [(Pipeline.withArrays_arr spec0 launch0.win.arr_inj c _ _ 7).trans (final m c)]
  funext i
  obtain ⟨r, rfl⟩ : ∃ r : Fin 500000, i = ix1 r := ⟨i 0, eq_ix1 i⟩
  refine (shapeCast_apply _ _ (ix1 r) (ix2 r (0 : Fin 1)) ?_).trans ?_
  · rw [Shape.rowMajor_val_two, Shape.rowMajor_val_one]
    show r.val * 1 + 0 = r.val
    omega
  · rfl

/-- THE RUN: every weakly fair execution ends with the result vector at `RowScore.scoreVec` of the arguments (the
    selected rows taken from the table by the integer array), and the arguments as they were. -/
theorem run : θ_run defs (onTc (τ := τ) (main (F := Ideal))) ⟨m, fun _ => 0, ρ⟩ fun r => ∀ c : Dev nD,
      r.2.mem ((c : Thread nD τ).loc main_v12) = RowScore.scoreVec (m ((c : Thread nD τ).loc main_arg0)) (Entry.selected (F := Ideal) (m ((c : Thread nD τ).loc main_arg1)) (m ((c : Thread nD τ).loc main_arg2))) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c =>
    ⟨((h c).2 main_v12 (Pipeline.mem_restRefs_of main_v12 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c)⟩)
    (run_main m ρ)

end Cert.KernelIdeal.Blocks

end
-- ==== Proof.lean ====
/-
  The certificate's five claims.

  Both idealized programs compute, for every row `r`,
      logistic ( Σ_k max( Σ_{j<256} x[r,j]·W1[j,k] + Σ_{j<256} g[r,j]·W1[256+j,k] + b1[k] , 0 ) · W2[k,0] + b2[0] ),
  where row `r` of `g` is the row of the 4096 × 256 table named by entry `r` of the integer array (moved up by 4096
  when negative) — the same selection, by the same operations, in both programs, so it is never opened.  The kernel
  forms the two 256-term sums separately, 5000 rows per grid point (Proof/Body.lean, Proof/Blocks.lean); the reference
  forms one 512-term sum over the two arrays laid side by side, which splits into its halves in any commutative
  monoid (Proof/Score.lean, Proof/RefScore.lean).  No step moves a factor across a sum or cancels anything, so the
  finiteness precondition is not used for the values.  The frames are the generated ones; the idealization rewrote
  nothing, so `preserves` has nothing to say.
-/
import proofs.«129467_j82489141887283_1_alg».proof.Defs
import proofs.«129467_j82489141887283_1_alg».proof.Proof.Gen.Kernel
import proofs.«129467_j82489141887283_1_alg».proof.Proof.Gen.Kernel.Skeleton
import proofs.«129467_j82489141887283_1_alg».proof.Proof.Gen.Kernel.Launch
import proofs.«129467_j82489141887283_1_alg».proof.Proof.Gen.Kernel.Points
import proofs.«129467_j82489141887283_1_alg».proof.Proof.Gen.Kernel.Frame
import proofs.«129467_j82489141887283_1_alg».proof.Proof.Gen.KernelIdeal
import proofs.«129467_j82489141887283_1_alg».proof.Proof.Gen.KernelIdeal.Skeleton
import proofs.«129467_j82489141887283_1_alg».proof.Proof.Gen.KernelIdeal.Launch
import proofs.«129467_j82489141887283_1_alg».proof.Proof.Gen.KernelIdeal.Points
import proofs.«129467_j82489141887283_1_alg».proof.Proof.Gen.KernelIdeal.Frame
import proofs.«129467_j82489141887283_1_alg».proof.Proof.Gen.ReferenceIdeal
import proofs.«129467_j82489141887283_1_alg».proof.Proof.Gen.Pre_finite_inputs
import proofs.«129467_j82489141887283_1_alg».proof.Proof.Gen.ReferenceIdeal.Run
import proofs.«129467_j82489141887283_1_alg».proof.Proof.Gen.ReferenceIdeal.Read
import proofs.«129467_j82489141887283_1_alg».proof.Proof.Score
import proofs.«129467_j82489141887283_1_alg».proof.Proof.RefScore
import proofs.«129467_j82489141887283_1_alg».proof.Proof.Body
import proofs.«129467_j82489141887283_1_alg».proof.Proof.Entry
import proofs.«129467_j82489141887283_1_alg».proof.Proof.Blocks
import Idealize.ShloMosaic.Adequacy
import Idealize.ShloMosaic.Init

noncomputable section

namespace Cert.Proof

open Idealize.ShloMosaic Idealize.ShloMosaic.TcCoe Idealize.SL.Sem

/-- The rows selected from the table are one array whichever program's text spells the selection: the two texts
    differ only in the names of their shapes and of the side conditions' proofs. -/
theorem selected_eq (M : FVec Ideal Cert.KernelIdeal.S4096x256 .f32) (idx : IVec Cert.KernelIdeal.S500000 32) :
    Cert.ReferenceIdeal.Read.val_main_v6 (F := Ideal) M idx = Cert.KernelIdeal.Entry.selected (F := Ideal) M idx := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the specification's vector of the kernel's
    arguments: the kernel by its run, the reference by its run read stage by stage and the agreement. -/
theorem algebraic : Cert.algebraic_KernelIdeal_ReferenceIdeal := by
  intro m ρ m' ρ' _ hagree
  refine ⟨fun c => RowScore.scoreVec (m ((c.tc : Thread Cert.KernelIdeal.nD Cert.KernelIdeal.τ).loc Cert.KernelIdeal.main_arg0))
      (Cert.KernelIdeal.Entry.selected (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v23_eq, Cert.ReferenceIdeal.RefScore.result_eq, e0, e1, e2, e3, e4, e5, e6,
    selected_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
